-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S8192x4096 : Shape := ⟨2, ![8192, 4096]⟩
abbrev S1x1 : Shape := ⟨2, ![1, 1]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩
abbrev S_ : Shape := ⟨0, ![]⟩
abbrev S256 : Shape := ⟨1, ![256]⟩
abbrev S256x1 : Shape := ⟨2, ![256, 1]⟩
abbrev S8192x16384 : Shape := ⟨2, ![8192, 16384]⟩
abbrev S512x4096 : Shape := ⟨2, ![512, 4096]⟩
abbrev S1024x4096 : Shape := ⟨2, ![1024, 4096]⟩
abbrev S512x1024 : Shape := ⟨2, ![512, 1024]⟩
abbrev S4096x1024 : Shape := ⟨2, ![4096, 1024]⟩
abbrev S4x2048x16384 : Shape := ⟨3, ![4, 2048, 16384]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S8192x4096, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S16384x4096, .bf16⟩
  | .hbm, ⟨12, _⟩ => ⟨S8192x4096, .bf16⟩
  | .hbm, ⟨13, _⟩ => ⟨S8192x16384, .f32⟩
  | .hbm, ⟨14, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S1x1, .f32⟩
  | .local _ .vmem, ⟨3, _⟩ => ⟨S256x4096, .f32⟩
  | .local _ .vmem, ⟨4, _⟩ => ⟨S256x4096, .f32⟩
  | .local _ .vmem, ⟨5, _⟩ => ⟨S1x1, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .bf16⟩
  | .local _ .vmem, ⟨11, _⟩ => ⟨S256x4096, .bf16⟩
  | .local _ .vmem, ⟨12, _⟩ => ⟨S512x4096, .bf16⟩
  | .local _ .vmem, ⟨13, _⟩ => ⟨S512x4096, .bf16⟩
  | .local _ .vmem, ⟨14, _⟩ => ⟨S1024x4096, .bf16⟩
  | .local _ .vmem, ⟨15, _⟩ => ⟨S1024x4096, .bf16⟩
  | .local _ .vmem, ⟨16, _⟩ => ⟨S512x1024, .f32⟩
  | .local _ .vmem, ⟨17, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨2, ![16, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  shapeCasts_S4x2048x4096_S8192x4096 : S4x2048x4096.ShapeCasts S8192x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  shapeCasts_S256x4096_S1x256x4096 : S256x4096.ShapeCasts S1x256x4096
  reduces_S1x256x4096_S1 : S1x256x4096.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S_S1x1 : S_.ShapeCasts S1x1
  inpos_S1x1_p0_0 : ∀ a, (![0, 0] : Fin 2 → Nat) a < S1x1.size a
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S16384x4096.size a
  hwx1_0 : ∀ i : grid1.Coords, EltTy.bits .f32 = 32 ∨ (Rect.block (s := S16384x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S16384x4096.size a
  hwx1_2 : ∀ i : grid1.Coords, EltTy.bits .bf16 = 32 ∨ (Rect.block (s := S16384x4096) S256x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S8192x4096.size a
  hwx2_1 : ∀ i : grid2.Coords, EltTy.bits .bf16 = 32 ∨ (Rect.block (s := S8192x4096) S256x4096.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S8192x4096.size a
  hwx3_0 : ∀ i : grid3.Coords, EltTy.bits .bf16 = 32 ∨ (Rect.block (s := S8192x4096) S512x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S16384x4096.size a
  hwx3_1 : ∀ i : grid3.Coords, EltTy.bits .bf16 = 32 ∨ (Rect.block (s := S16384x4096) S1024x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S8192x16384.size a
  hwx3_2 : ∀ i : grid3.Coords, EltTy.bits .f32 = 32 ∨ (Rect.block (s := S8192x16384) S512x1024.size (cc3_transform_2 i) (hinb3_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S256x4096.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v7) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1024x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S4x2048 : Shape := ⟨2, ![4, 2048]⟩
abbrev S4x2048x1 : Shape := ⟨3, ![4, 2048, 1]⟩
abbrev S4x2048x16384 : Shape := ⟨3, ![4, 2048, 16384]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S16384x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_cst_8 : Ref sig .tc := ⟨.hbm, 38, rfl⟩
abbrev main_call5_v0 : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S16384x4096_S_d0_1 : S16384x4096.ReducesTo [0, 1] S_
  bcast_S_S16384x4096 : S_.BroadcastsInDim S16384x4096 (![] : Fin 0 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.KRun.lean ====
/-
  The idealized kernel's run with its result named.

  Every weakly fair execution of the program terminates without a fault; at the end the result buffer holds what the
  last host operation (a reshape of the matmul's output array) leaves, written here as the fold of the program's
  segments from the launch memory (the contents at the last segment boundary, read at the result's buffer), and the two
  argument arrays are as launched. The launch is the one over the program's nine segments — a reshape, the four kernel
  regions and the host operations between them —; the final thread state holds every unscoped buffer at the last
  boundary's contents, and reading it back at the result buffer and at the two arguments gives the three facts.
-/
import proofs.«123339_j26405458936545_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents read at it, the arguments as launched. -/
theorem run : θ_run defs (onTc (τ := τ) (main (F := F))) ⟨m, fun _ => 0, ρ⟩ (fun r => ∀ c : Dev nD,
      r.2.mem ((c.tc : Thread nD τ).loc main_v9) = W9 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v9 (by decide)),
       (h c _ (mem_uc main_arg0 (by decide))).trans (W9_main_arg0 m ρ c),
       (h c _ (mem_uc main_arg1 (by decide))).trans (W9_main_arg1 m ρ c)⟩)

end Cert.KernelIdeal.KRun

end
-- ==== Proof.Fold.lean ====
/-
  What each kernel region finds in the buffers it reads, and what the result buffer ends holding, read back through the
  program's segments.

  The program is: a reshape of the activations to 8192 x 4096; region 0 (the sum of |weight|); four small host
  operations making the weight scale `max eps (sum / 2^26)` and reshaping it to 1 x 1; region 1 (the quantized weights);
  region 2 (the quantized activations); region 3 (the matmul); a reshape of its 8192 x 16384 output to 4 x 2048 x 16384.
  A region changes only its own arrays and a host operation only its result, so a buffer read at a later boundary is
  what its last writer left: the arguments are never written; the reshaped activations are written once, before
  region 0; the 1 x 1 scale by the host operations after region 0; each quantized array by its region.
-/
import proofs.«123339_j26405458936545_1_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that none of a stretch's host operations writes keeps its contents across the stretch. -/
local macro "not_written" : tactic => `(tactic| (
  refine StableHlo.after_of_forall_not_mem _ _ (List.forall_iff_forall_mem.mp ?_)
  simp only [hostOps0, hostOps1, hostOps1_1, hostOps1_2, hostOps4, List.Forall, StableHlo.nullary_writes,
    StableHlo.unary_writes, StableHlo.binary_writes, StableHlo.reshape_writes, Finset.mem_singleton]
  repeat' apply And.intro
  all_goals exact StableHlo.devRef_ne_of_ne (by decide)))

/-! ## The weights, as every region finds them -/

/-- Region 0 finds the weight argument as launched. -/
theorem weights_at_sum (c : Dev nD) : V1 m ρ c main_arg1 = m ((c : Thread nD τ).loc main_arg1) :=
  calc W1 m ρ c (Proc.devRef .tc main_arg1)
    _ = W0 m ρ c (Proc.devRef .tc main_arg1) := by not_written
    _ = m ((c : Thread nD τ).loc main_arg1) := rfl

/-- Region 1 finds the weight argument as launched. -/
theorem weights_at_quant (c : Dev nD) : V5 m ρ c main_arg1 = m ((c : Thread nD τ).loc main_arg1) :=
  calc W5 m ρ c (Proc.devRef .tc main_arg1)
    _ = W4 m ρ c (Proc.devRef .tc main_arg1) := by not_written
    _ = W3 m ρ c (Proc.devRef .tc main_arg1) := by not_written
    _ = W2 m ρ c (Proc.devRef .tc main_arg1) := by not_written
    _ = W1 m ρ c (Proc.devRef .tc main_arg1) :=
        (W2_arr m ρ c 0).trans (((dat0 (V1 m ρ) c).arrAt_in 0 rfl _).trans (A_eq0 (V1 m ρ) c 0))
    _ = m ((c : Thread nD τ).loc main_arg1) := weights_at_sum m ρ c

/-! ## The activations, re-laid as 8192 rows -/

/-- Region 2 finds, in the re-laid activations' buffer, the reshape of the activation argument as launched. -/
theorem acts_at_quant (c : Dev nD) :
    V6 m ρ c main_v0 = shapeCast S8192x4096 (m ((c : Thread nD τ).loc main_arg0)) shapeCasts_S4x2048x4096_S8192x4096 :=
  calc W6 m ρ c (Proc.devRef .tc main_v0)
    _ = W5 m ρ c (Proc.devRef .tc main_v0) := W6_of_ne m ρ c main_v0 (by decide)
    _ = W4 m ρ c (Proc.devRef .tc main_v0) := by not_written
    _ = W3 m ρ c (Proc.devRef .tc main_v0) := by not_written
    _ = W2 m ρ c (Proc.devRef .tc main_v0) := by not_written
    _ = W1 m ρ c (Proc.devRef .tc main_v0) := W2_of_ne m ρ c main_v0 (by decide)
    _ = shapeCast S8192x4096 (m ((c : Thread nD τ).loc main_arg0)) shapeCasts_S4x2048x4096_S8192x4096 := by
        show StableHlo.after hostOps0 (W0 m ρ c) (Proc.devRef .tc main_v0) = _
        after_results
        rfl

/-! ## The weight scale -/

/-- The 1 x 1 accumulator after region 0 is what that region's write-back leaves. -/
theorem sum_after (c : Dev nD) : W2 m ρ c (Proc.devRef .tc main_v1) = (dat0 (V1 m ρ) c).arrAt 1 cfg0.N :=
  W2_arr m ρ c 1

/-- Region 1 finds, in the 1 x 1 scale's buffer, `max eps (sum / 2^26)` of the accumulator, re-laid to 1 x 1. -/
theorem scale_at_quant (c : Dev nD) :
    V5 m ρ c main_v5
      = shapeCast S1x1 (maximumf (id (constant (F := Ideal) S_ .f32 0x3727C5AC#32))
          (Host.divf (shapeCast S_ (W2 m ρ c (Proc.devRef .tc main_v1)) shapeCasts_S1x1_S_) (constant (F := Ideal) S_ .f32 0x4C800000#32)))
          shapeCasts_S_S1x1 := by
  show StableHlo.after hostOps1_2 (StableHlo.after hostOps1_1 (StableHlo.after hostOps1 (W2 m ρ c))) (Proc.devRef .tc main_v5) = _
  after_results
  rfl

/-! ## The two quantized arrays, as the matmul finds them -/

/-- Region 3 finds, in the quantized weights' buffer, what region 1's write-backs left. -/
theorem qweights_at_matmul (c : Dev nD) : V7 m ρ c main_v6 = (dat1 (V5 m ρ) c).arrAt 2 cfg1.N :=
  calc W7 m ρ c (Proc.devRef .tc main_v6)
    _ = W6 m ρ c (Proc.devRef .tc main_v6) := W7_of_ne m ρ c main_v6 (by decide)
    _ = (dat1 (V5 m ρ) c).arrAt 2 cfg1.N := W6_arr m ρ c 2

/-- Region 3 finds, in the quantized activations' buffer, what region 2's write-backs left. -/
theorem qacts_at_matmul (c : Dev nD) : V7 m ρ c main_v7 = (dat2 (V6 m ρ) c).arrAt 1 cfg2.N :=
  W7_arr m ρ c 1

/-! ## The result -/

/-- The result buffer ends holding the matmul's output array, re-laid as 4 x 2048 x 16384. -/
theorem result_after (c : Dev nD) :
    W9 m ρ c (Proc.devRef .tc main_v9)
      = shapeCast S4x2048x16384 ((dat3 (V7 m ρ) c).arrAt 2 cfg3.N) shapeCasts_S8192x16384_S4x2048x16384 := by
  show StableHlo.after hostOps4 (W8 m ρ c) (Proc.devRef .tc main_v9) = _
  after_results
  rw [show W8 m ρ c (Proc.devRef .tc main_v8) = (dat3 (V7 m ρ) c).arrAt 2 cfg3.N from W8_arr m ρ c 2]
  rfl

end Cert.KernelIdeal.Fold

end
-- ==== Proof.Relayout.lean ====
/-
  Re-layouts read at an index.

  A reshape keeps an entry's row-major position. For the activations, entry `(b, s, k)` of a 4 x 2048 x 4096 array sits
  at position `(2048 b + s) * 4096 + k`, which is entry `(2048 b + s, k)` of the 8192 x 4096 array; the same for the
  output, with 16384 columns. Between a one-entry array of rank 0 and one of shape 1 x 1 there is nothing to compute:
  every index is the only one.
-/
import Idealize.ShloMosaic.Lib.Pipeline.Value
import Idealize.ShloMosaic.Lib.ValueIdx

noncomputable section

namespace Cert.Relayout

open Idealize.ShloMosaic Idealize.ShloMosaic.ValueIdx

variable {α : Type}

/-- Row `2048 b + s` of the activations re-laid as 8192 rows is row `(b, s)` of the 4 x 2048 x 4096 array. -/
theorem rows_apply (x : (⟨3, ![4, 2048, 4096]⟩ : Shape).Idx → α)
    (h : (⟨3, ![4, 2048, 4096]⟩ : Shape).ShapeCasts ⟨2, ![8192, 4096]⟩)
    (b : Fin 4) (s : Fin 2048) (k : Fin 4096) (r : Fin 8192) (hr : r.val = 2048 * b.val + s.val) :
    shapeCast (⟨2, ![8192, 4096]⟩ : Shape) x h (ix2 r k) = x (ix3 b s k) := by
  refine shapeCast_apply x h (ix2 r k) (ix3 b s k) ?_
  rw [Shape.rowMajor_val_three, Shape.rowMajor_val_two]
  show (b.val * 2048 + s.val) * 4096 + k.val = r.val * 4096 + k.val
  rw [hr]; ring

/-- Entry `(b, s, o)` of the output re-laid as 4 x 2048 x 16384 is entry `(2048 b + s, o)` of the 8192 x 16384 array. -/
theorem unrows_apply (y : (⟨2, ![8192, 16384]⟩ : Shape).Idx → α)
    (h : (⟨2, ![8192, 16384]⟩ : Shape).ShapeCasts ⟨3, ![4, 2048, 16384]⟩)
    (b : Fin 4) (s : Fin 2048) (o : Fin 16384) (r : Fin 8192) (hr : r.val = 2048 * b.val + s.val) :
    shapeCast (⟨3, ![4, 2048, 16384]⟩ : Shape) y h (ix3 b s o) = y (ix2 r o) := by
  refine shapeCast_apply y h (ix3 b s o) (ix2 r o) ?_
  rw [Shape.rowMajor_val_three, Shape.rowMajor_val_two]
  show r.val * 16384 + o.val = (b.val * 2048 + s.val) * 16384 + o.val
  rw [hr]; ring

/-- A 1 x 1 array has one index. -/
theorem idx11_eq (i j : (⟨2, ![1, 1]⟩ : Shape).Idx) : i = j := by
  funext a
  apply Fin.ext
  have hi : (i a).val < (![1, 1] : Fin 2 → Nat) a := (i a).isLt
  have hj : (j a).val < (![1, 1] : Fin 2 → Nat) a := (j a).isLt
  match a with
  | ⟨0, _⟩ => have hi' : (i ⟨0, by omega⟩).val < 1 := hi; have hj' : (j ⟨0, by omega⟩).val < 1 := hj; omega
  | ⟨1, _⟩ => have hi' : (i ⟨1, by omega⟩).val < 1 := hi; have hj' : (j ⟨1, by omega⟩).val < 1 := hj; omega

/-- A 1 x 1 array re-laid as a scalar holds its one entry. -/
theorem to_scalar_apply (y : (⟨2, ![1, 1]⟩ : Shape).Idx → α) (h : (⟨2, ![1, 1]⟩ : Shape).ShapeCasts ⟨0, ![]⟩)
    (i : (⟨0, ![]⟩ : Shape).Idx) :
    shapeCast (⟨0, ![]⟩ : Shape) y h i = y (ix2 (0 : Fin 1) (0 : Fin 1)) :=
  congrArg y (idx11_eq _ _)

/-- A scalar re-laid as a 1 x 1 array holds it at its one index. -/
theorem of_scalar_apply (z : (⟨0, ![]⟩ : Shape).Idx → α) (h : (⟨0, ![]⟩ : Shape).ShapeCasts ⟨2, ![1, 1]⟩)
    (i : (⟨2, ![1, 1]⟩ : Shape).Idx) :
    shapeCast (⟨2, ![1, 1]⟩ : Shape) z h i = z ix0 :=
  congrArg z (funext fun a => a.elim0)

end Cert.Relayout

end
-- ==== Proof.Spec.lean ====
/-
  The scalar arithmetic of a quantized linear layer, over the extended reals.

  A weight matrix `w` (16384 x 4096) is replaced by `clip(round(w / s), -1, 1) * s`, where the scale `s` is the mean of
  `|w|` over all 2^26 entries, floored at a small positive constant. An activation row `x` (4096 entries) is replaced by
  `clip(round(x * c), -128, 127) / c` with `c = 128 / max(eps, max_k |x k|)`. The layer's output entry is the sum over
  the 4096 input features of the products of the two. Rounding is to the nearest integer, ties to even.
  Every function below is stated on extended reals: division is the total division of the ideal float instance, `max` and
  `min` the lattice operations, and each constant is the exact value of its single-precision word.
-/
import Idealize.ShloMosaic.PureOps.Ideal
import Idealize.ShloMosaic.Lib.ValueIdx

noncomputable section

namespace Cert.Quant

open Idealize.ShloMosaic

/-- Rounding to the nearest integer, ties to even; the two infinities are fixed. -/
def rne (x : EReal) : EReal := Ideal.liftRound Ideal.roundHalfEven x

/-- The floor of both scales: the single-precision number nearest `1e-5`. -/
def eps : EReal := Ideal.ofBits .f32 0x3727C5AC#32

/-- The absolute value `max x (-x)`. -/
def absE (x : EReal) : EReal := max x (-x)

/-- The weight scale from the sum `S` of `|w|` over the whole matrix: `max eps (S / 2^26)`. -/
def wscale (S : EReal) : EReal := max eps (Ideal.div S (Ideal.ofBits .f32 0x4C800000#32))

/-- One weight at scale `s`, made ternary: `min 1 (max (-1) (round (w / s))) * s`. -/
def wq (w s : EReal) : EReal :=
  min (Ideal.ofBits .f32 0x3F800000#32) (max (Ideal.ofBits .f32 0xBF800000#32) (rne (Ideal.div w s))) * s

/-- The largest entry of a row of 4096 extended reals, starting from `-inf`. -/
def rowMax (f : Fin 4096 → EReal) : EReal :=
  (Finset.univ : Finset (Fin 4096)).fold max (Ideal.ofBits .f32 0xFF800000#32) f

/-- The activation scale of a row whose largest absolute value is `a`: `128 / max eps a`. -/
def xscale (a : EReal) : EReal := Ideal.div (Ideal.ofBits .f32 0x43000000#32) (max eps a)

/-- One activation at row scale `c`, made eight-bit: `min 127 (max (-128) (round (x * c))) / c`. -/
def xq (x c : EReal) : EReal :=
  Ideal.div (min (Ideal.ofBits .f32 0x42FE0000#32) (max (Ideal.ofBits .f32 0xC3000000#32) (rne (x * c)))) c

end Cert.Quant

end
-- ==== Proof.Layer.lean ====
/-
  The quantized linear layer as one function of its two argument arrays.

  For activations `x` (4 x 2048 x 4096) and weights `w` (16384 x 4096), the output entry `(b, s, o)` is the sum over the
  4096 input features `k` of the product of the quantized activation `x (b, s, k)` — at the scale of its row `(b, s)`,
  which depends on the largest absolute value of that row — with the quantized weight `w (o, k)`, at the one scale of
  the whole matrix, which depends on the sum of all its absolute values.
-/
import proofs.«123339_j26405458936545_1_alg».proof.Proof.Spec

noncomputable section

namespace Cert.Layer

open Idealize.ShloMosaic Idealize.ShloMosaic.ValueIdx

/-- The scale of the activation row `(b, s)`. -/
def rowScale (x : (⟨3, ![4, 2048, 4096]⟩ : Shape).Idx → EReal) (b : Fin 4) (s : Fin 2048) : EReal :=
  Cert.Quant.xscale (Cert.Quant.rowMax fun k => Cert.Quant.absE (x (ix3 b s k)))

/-- The scale of the weight matrix. -/
def matScale (w : (⟨2, ![16384, 4096]⟩ : Shape).Idx → EReal) : EReal :=
  Cert.Quant.wscale (∑ j : (⟨2, ![16384, 4096]⟩ : Shape).Idx, Cert.Quant.absE (w j))

/-- The output entry `(b, s, o)`. -/
def entry (x : (⟨3, ![4, 2048, 4096]⟩ : Shape).Idx → EReal) (w : (⟨2, ![16384, 4096]⟩ : Shape).Idx → EReal)
    (b : Fin 4) (s : Fin 2048) (o : Fin 16384) : EReal :=
  ∑ k : Fin 4096, Cert.Quant.xq (x (ix3 b s k)) (rowScale x b s) * Cert.Quant.wq (w (ix2 o k)) (matScale w)

/-- The output array. -/
def out (x : (⟨3, ![4, 2048, 4096]⟩ : Shape).Idx → EReal) (w : (⟨2, ![16384, 4096]⟩ : Shape).Idx → EReal) :
    (⟨3, ![4, 2048, 16384]⟩ : Shape).Idx → EReal :=
  fun i => entry x w (i 0) (i 1) (i 2)

end Cert.Layer

end
-- ==== Proof.WeightSum.lean ====
/-
  The first launch of the quantized linear layer: the sum of the absolute values of all 16384 x 4096 weights.

  The launch walks the 64 row blocks of 256 rows. Its 1 x 1 accumulator is set to zero at the first block, and at every
  block the sum of the absolute values of the block's 256 x 4096 entries is added to it; the accumulator is written
  back once, after the last block. Over the extended reals every addition is exact, so what is written back is
      0 + s_0 + s_1 + … + s_63,   s_t = ∑ j, |w (256 t + j_0, j_1)|,
  and, addition being commutative and associative, that is the sum of |w i| over all indices i of the matrix (the rows
  re-index along (t, a) ↦ 256 t + a). The statement holds for any contents of the arrays when the launch begins.
-/
import proofs.«123339_j26405458936545_1_alg».proof.Proof.Gen.KernelIdeal.Frame
import proofs.«123339_j26405458936545_1_alg».proof.Proof.Spec
import Idealize.ShloMosaic.Lib.Pipeline.Value
import Idealize.ShloMosaic.Lib.ValueIdx
import Idealize.ShloMosaic.Lib.Tactic
import Idealize.ShloMosaic.PureOps.Ideal.Laws
set_option maxRecDepth 16384
noncomputable section
open Idealize.ShloMosaic Idealize.ShloMosaic.TcCoe Idealize.SL.Sem Idealize.ShloMosaic.ValueIdx
open Idealize.ShloMosaic.Pipeline (Dat)
namespace Cert.KernelIdeal.WeightSum
open Cert.KernelIdeal Cert.KernelIdeal.Gen
variable (V : (c : Dev nD) → (b : Ref sig .tc) → Buf (Elt Ideal) ((c : Thread nD τ).loc b))

/-- The sum of the absolute values of one 256 x 4096 block. -/
def blockSum (x : Vec Ideal S256x4096 .f32) : EReal := ∑ j : S256x4096.Idx, Cert.Quant.absE (x j)

/-- The value the body stores: the accumulator read back plus the block's sum. The reduction over axes 1 and 2 of
    the block seen as [1, 256, 4096] leaves one entry, the sum over every index; the cast to [1, 256, 4096] is a
    bijection of index sets, so that sum is the sum over the block's own indices. -/
theorem pay2_eq (v3 : Vec Ideal S1x1 .f32) (v5 : Vec Ideal S256x4096 .f32) :
    k0_pay2 (F := Ideal) v3 v5 = fun i => (v3 i : EReal) + blockSum v5 := by
  funext i
  unfold k0_pay2
  refine (addf_apply _ _ i).trans ?_
  refine congrArg₂ (· + ·) (congrFun (shapeCast_self v3 _) i) ?_
  refine (broadcast_apply _ i).trans ?_
  unfold extractAt shapeCast
  refine (Ideal.multiReduction_add_total _ _ _ (fun b => by match b with | ⟨0, _⟩ => rfl) _ _ _).trans ?_
  unfold blockSum
  refine (Finset.sum_congr rfl fun j _ => ?_).trans
    (Equiv.sum_comp (Shape.reshapeEquiv shapeCasts_S256x4096_S1x256x4096) (fun k => Cert.Quant.absE (v5 k)))
  rfl

theorem hz : (![0, 0] : Fin 2 → Nat) = fun _ => 0 := funext fun a => by fin_cases a <;> rfl

/-- Past the first grid point the body leaves, in the accumulator holding `xo`, `xo` plus the block's sum. -/
theorem out_B (c : Dev nD) (i : grid0.Coords) (a1 : Memref sig .tc .vmem S256x4096 .f32) (h1 : a1.IsWhole)
    (a2 : Memref sig .tc .vmem S1x1 .f32) (h2 : a2.IsWhole) (hc : ¬cond0_0 i) (x : Vec Ideal S256x4096 .f32)
    (xo : Vec Ideal S1x1 .f32) :
    out0_B_1 (F := Ideal) c i a1 h1 a2 h2 hc x xo = fun j => (xo j : EReal) + blockSum x := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S1x1) hz,
    View.ld_unit_zero (S := S256x4096) hz]
  exact pay2_eq xo x

/-- At the first grid point the body stores zero, reads it back, and leaves zero plus the block's sum. -/
theorem out_A (c : Dev nD) (i : grid0.Coords) (a1 : Memref sig .tc .vmem S256x4096 .f32) (h1 : a1.IsWhole)
    (a2 : Memref sig .tc .vmem S1x1 .f32) (h2 : a2.IsWhole) (hc : cond0_0 i) (x : Vec Ideal S256x4096 .f32) :
    out0_A_1 (F := Ideal) c i a1 h1 a2 h2 hc x = fun j => (0 : EReal) + blockSum x := by
  unfold out0_A_1
  rw [View.read_writes_eq_canon _ _ _ (cover0_A_1 c i a1 h1 a2 h2 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S256x4096) hz]
  refine (pay2_eq _ x).trans ?_
  funext j
  refine congrArg (· + blockSum x) ?_
  exact Ideal.ofBits_zero_f32

/-- The sum of the absolute values of the weight block of grid point `k` (zero past the grid). -/
def pointSum (c : Dev nD) (k : ℕ) : EReal :=
  if h : k < cfg0.N then blockSum (iblk0 V c 0 ⟨k, h⟩) else 0

/-- After grid point `n` the accumulator holds the sum of the block sums of points `0 … n`: by induction on the point. -/
theorem outsAt_eq (c : Dev nD) : ∀ (n : ℕ) (h : n < cfg0.N),
    outsAt0 (F := Ideal) V c n h = fun _ => ∑ k ∈ Finset.range (n + 1), pointSum V c k
  | 0, h => by
    refine ((outsAt0_A V c ⟨0, h⟩ rfl).trans (out_A ..)).trans ?_
    funext j
    rw [Finset.sum_range_one, zero_add]
    unfold pointSum
    rw [dif_pos h]
  | n + 1, h => by
    have hB : ¬(⟨n + 1, h⟩ : Fin cfg0.N).val % 64 = 0 := by
      have hN : cfg0.N = 64 := N_0
      dsimp only; omega
    rw [outsAt0_B V c ⟨n + 1, h⟩ hB, out_B]
    show (fun j => (outsAt0 V c n _ j : EReal) + _) = _
    rw [outsAt_eq c n]
    funext j
    rw [Finset.sum_range_succ (n := n + 1)]
    refine congrArg (_ + ·) ?_
    unfold pointSum
    rw [dif_pos h]

/-- Row `256 t + a` of the weight matrix is row `a` of block `t`: the pairs (block, row inside the block) are the
    16384 rows. -/
def rowEquiv : Fin 64 × Fin 256 ≃ Fin 16384 where
  toFun p := ⟨256 * p.1.val + p.2.val, by have := p.1.isLt; have := p.2.isLt; omega⟩
  invFun r := (⟨r.val / 256, by have := r.isLt; omega⟩, ⟨r.val % 256, Nat.mod_lt _ (by decide)⟩)
  left_inv p := by
    have h1 := p.1.isLt
    have h2 := p.2.isLt
    refine Prod.ext (Fin.ext ?_) (Fin.ext ?_)
    · show (256 * p.1.val + p.2.val) / 256 = p.1.val
      omega
    · show (256 * p.1.val + p.2.val) % 256 = p.2.val
      omega
  right_inv r := Fin.ext (by show 256 * (r.val / 256) + r.val % 256 = r.val; omega)

/-- Summing block by block is summing over the whole matrix: both are double sums over coordinates, and the rows
    re-index along `rowEquiv`. Addition of extended reals is commutative and associative, so no finiteness is used. -/
theorem sum_blocks (f : S16384x4096.Idx → EReal) :
    ∑ t : Fin 64, ∑ j : S256x4096.Idx, f (ix2 (rowEquiv (t, j 0)) (j 1)) = ∑ i : S16384x4096.Idx, f i := by
  rw [sum_idx2 f, ← Equiv.sum_comp rowEquiv (fun r => ∑ b : Fin 4096, f (ix2 r b)), Fintype.sum_prod_type]
  refine Finset.sum_congr rfl fun t _ => ?_
  rw [sum_idx2]

/-- The weight window's block index at grid point `t` is `(t, 0)`: decided once over the grid. -/
theorem weight_index : ∀ t : Fin cfg0.N, win0_0.index t 0 = t.val ∧ win0_0.index t 1 = 0 :=
  (by decide +kernel : ∀ t : Fin grid0.N, win0_0.index t 0 = t.val ∧ win0_0.index t 1 = 0)

/-- Entry `j` of the weight block of grid point `t` is the matrix entry at row `256 t + j 0`, column `j 1`: a
    block's coordinate is its index times the block size plus the coordinate inside the block. -/
theorem iblk_apply (c : Dev nD) (t : Fin 64) (ht : t.val < cfg0.N) (j : S256x4096.Idx) :
    (iblk0 (F := Ideal) V c 0 ⟨t.val, ht⟩ : Vec Ideal S256x4096 .f32) j
      = V c main_arg1 (ix2 (rowEquiv (t, j 0)) (j 1)) := by
  unfold iblk0
  rw [View.read_apply]
  show V c main_arg1 _ = V c main_arg1 _
  congr 1
  funext a
  apply Fin.ext
  match a with
  | ⟨0, _⟩ =>
    show win0_0.index ⟨t.val, ht⟩ 0 * 256 + 1 * (j 0).val = 256 * t.val + (j 0).val
    rw [(weight_index _).1]
    show t.val * 256 + 1 * (j 0).val = 256 * t.val + (j 0).val
    omega
  | ⟨1, _⟩ =>
    show win0_0.index ⟨t.val, ht⟩ 1 * 4096 + 1 * (j 1).val = (j 1).val
    rw [(weight_index _).2]
    show 0 * 4096 + 1 * (j 1).val = (j 1).val
    omega

/-- The block sums of the 64 grid points add up to the sum over the whole matrix. -/
theorem total_eq (c : Dev nD) :
    ∑ k ∈ Finset.range 64, pointSum V c k = ∑ i : S16384x4096.Idx, Cert.Quant.absE (V c main_arg1 i) := by
  have hN : cfg0.N = 64 := N_0
  rw [← Fin.sum_univ_eq_sum_range (pointSum V c) 64, ← sum_blocks]
  refine Finset.sum_congr rfl fun t _ => ?_
  unfold pointSum
  rw [dif_pos (by rw [hN]; exact t.isLt)]
  unfold blockSum
  refine Finset.sum_congr rfl fun j _ => ?_
  exact congrArg Cert.Quant.absE (iblk_apply V c t _ j)

/-- The 1 x 1 array holding the sum of the absolute values of all weights. -/
abbrev total (c : Dev nD) : Buf (Elt Ideal) ((c : Thread nD τ).loc main_v1) :=
  fun _ => (∑ i : S16384x4096.Idx, Cert.Quant.absE (V c main_arg1 i) : EReal)

/-- The accumulator window's block sits at offset zero at every grid point: decided once over the grid. -/
theorem acc_offset : ∀ (t : Fin cfg0.N) (a : Fin 2), win0_1.index t a * main_v1.ty.shape.size a = 0 :=
  (by decide +kernel : ∀ (t : Fin grid0.N) (a : Fin 2), win0_1.index t a * main_v1.ty.shape.size a = 0)

/-- The one write-back, after the last grid point, writes the total: the accumulator then holds the block sums of
    points `0 … 63`, and block (0, 0) of the 1 x 1 array read at offset zero is the array. -/
theorem flushed_eq (c : Dev nD) (t : Fin cfg0.N) (hf : (cfg0.win 1).flush t = true) :
    (dat0 (F := Ideal) V c).flushed 1 t = ((cfg0.win 1).blk t).view.read (Elt Ideal) (total V c) := by
  have hN : cfg0.N = 64 := N_0
  have h63 : t.val = 63 := by have := (flush0_1 t).mp hf; have := t.isLt; omega
  show (cfg0.win 1).cut (grid0.coords t) ((dat0 V c).after 1 t) = _
  rw [after0_1, outsAt_eq, h63, total_eq]
  have hz' : (fun a => win0_1.index t a * main_v1.ty.shape.size a) = fun _ => 0 := funext fun a => acc_offset t a
  exact (Memref.read_access_unit_zero (Elt Ideal) main_v1 hz' (fun a => by rw [congrFun hz' a]; simp) (total V c)).symm

/-- The last grid point. -/
abbrev lastPoint : Fin cfg0.N := ⟨63, by rw [show cfg0.N = 64 from N_0]; decide⟩

/-- After the region the 1 x 1 result array holds the sum of the absolute values of all weights: the last grid
    point writes it back and its block is the whole array. -/
theorem final (c : Dev nD) :
    (dat0 (F := Ideal) V c).arrAt 1 cfg0.N = fun _ => ∑ i : S16384x4096.Idx, Cert.Quant.absE (V c main_arg1 i) :=
  (dat0 V c).arrAt_eq_of_cover 1 (total V c) (flushed_eq V c) fun i =>
    ⟨lastPoint, (flush0_1 lastPoint).mpr rfl, by
      show i ∈ ((View.whole main_v1).slice (win0_1.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index lastPoint 0 * win0_1.size 0 ≤ (i 0 : Nat)
          ∧ (i 0 : Nat) < win0_1.index lastPoint 0 * win0_1.size 0 + win0_1.xsize (grid0.coords lastPoint) 0
        rw [show win0_1.index lastPoint 0 * win0_1.size 0 = 0 from by decide +kernel,
          show win0_1.xsize (grid0.coords lastPoint) 0 = 1 from by decide +kernel]
        omega
      | ⟨1, _⟩ =>
        show win0_1.index lastPoint 1 * win0_1.size 1 ≤ (i 1 : Nat)
          ∧ (i 1 : Nat) < win0_1.index lastPoint 1 * win0_1.size 1 + win0_1.xsize (grid0.coords lastPoint) 1
        rw [show win0_1.index lastPoint 1 * win0_1.size 1 = 0 from by decide +kernel,
          show win0_1.xsize (grid0.coords lastPoint) 1 = 1 from by decide +kernel]
        omega⟩

end Cert.KernelIdeal.WeightSum
end
-- ==== Proof.WeightQuant.lean ====
/-
  The weight matrix after ternary quantization, entry by entry.

  The second region walks the 16384 x 4096 weight matrix in 64 blocks of 256 full rows. At each block it reads the
  one-entry scale array `s` and writes, at every entry `(p, q)` of the block, `min 1 (max (-1) (round (w / s))) * s` of
  the weight `w` at that entry: a pointwise function of the block, with the scale the same at every entry. Block `t`
  of the output sits over rows `256 t … 256 t + 255` and all columns, exactly where block `t` of the weights sits, so
  each block written is the restriction of ONE function of the whole matrix, and the 64 blocks tile the matrix (row `r`
  lies in block `r / 256`). Hence the array after the region is that function: `wq (w i) s` at every index `i`.
-/
import proofs.«123339_j26405458936545_1_alg».proof.Proof.Gen.KernelIdeal.Frame
import proofs.«123339_j26405458936545_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.WeightQuant

open Cert.KernelIdeal Cert.KernelIdeal.Gen

variable (V : (c : Dev nD) → (b : Ref sig .tc) → Buf (Elt Ideal) ((c : Thread nD τ).loc b))

/-- The position a scalar is extracted at in a one-entry block is the block's one index. -/
theorem pos_zero (h : ∀ a, (![0, 0] : Fin S1x1.rank → Nat) a < S1x1.size a) :
    (fun a => (⟨(![0, 0] : Fin S1x1.rank → Nat) a, h a⟩ : Fin (S1x1.size a))) = ix2 (0 : Fin 1) (0 : Fin 1) := by
  funext a
  match a with
  | ⟨0, _⟩ => rfl
  | ⟨1, _⟩ => rfl

/-- The body's value at entry `(p, q)` of a block: the weight there divided by the scale, rounded to the nearest
    integer (ties to even), clipped to [-1, 1], times the scale, where the scale is the one entry of the scale block.
    Every operation is pointwise, and narrowing to bf16 is the identity on extended reals. -/
theorem pay_apply (s : Vec Ideal S1x1 .f32) (x : Vec Ideal S256x4096 .f32) (p : Fin 256) (q : Fin 4096) :
    k1_pay1 s x (ix2 p q) = Cert.Quant.wq (x (ix2 p q)) (s (ix2 (0 : Fin 1) (0 : Fin 1))) := by
  unfold k1_pay1 Cert.Quant.wq Cert.Quant.rne
  have e : extractAt ![0, 0] s inpos_S1x1_p0_0 = s (ix2 (0 : Fin 1) (0 : Fin 1)) := by
    unfold extractAt
    exact congrArg s (pos_zero _)
  rw [e]
  rfl

/-- Both zero offsets of a rank-two block, as the constant function. -/
theorem zero_offsets : (![0, 0] : Fin 2 → Nat) = fun _ => 0 := funext fun a => by fin_cases a <;> rfl

/-- The quantized weight matrix as one function of the weights and of the one-entry scale array. -/
abbrev G (c : Dev nD) : S16384x4096.Idx → Elt Ideal .bf16 :=
  fun i => Cert.Quant.wq (V c main_arg1 i) (V c main_v5 (ix2 (0 : Fin 1) (0 : Fin 1)))

/-- The three index maps over the grid: the weight block and the output block are both block row `t`, column block 0;
    the scale's block is always block (0, 0). -/
theorem index_maps : ∀ t : Fin cfg1.N,
    win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of `G`: the weight block and the output block sit over the same rows
    `256 t + p` and columns `q`, and the scale's block is the whole one-entry array at every point. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 V c).after 2 t) = _
  rw [after1_2]
  unfold out1_2
  rw [View.canon_unit_zero zero_offsets]
  simp only [View.ld_unit_zero (S := S256x4096) zero_offsets, View.ld_unit_zero (S := S1x1) zero_offsets]
  obtain ⟨e0, e1, e2, e3, e4, e5⟩ := index_maps t
  funext j
  obtain ⟨p, q, rfl⟩ : ∃ (p : Fin 256) (q : Fin 4096), j = ix2 p q := ⟨j 0, j 1, eq_ix2 j⟩
  show k1_pay1 (iblk1 V c 1 t) (iblk1 V c 0 t) (ix2 p q)
    = Cert.Quant.wq (V c main_arg1 (((cfg1.win 2).blk t).view.emb (ix2 p q))) (V c main_v5 (ix2 (0 : Fin 1) (0 : Fin 1)))
  refine (pay_apply _ _ p q).trans ?_
  show Cert.Quant.wq (V c main_arg1 (((cfg1.win 0).blk t).view.emb (ix2 p q)))
      (V c main_v5 (((cfg1.win 1).blk t).view.emb (ix2 (0 : Fin 1) (0 : Fin 1)))) = _
  have h0 : ((cfg1.win 0).blk t).view.emb (ix2 p q) = ((cfg1.win 2).blk t).view.emb (ix2 p q) := by
    funext a; apply Fin.ext
    match a with
    | ⟨0, _⟩ => show win1_0.index t (0 : Fin 2) * 256 + 1 * p.val = win1_2.index t (0 : Fin 2) * 256 + 1 * p.val; omega
    | ⟨1, _⟩ => show win1_0.index t (1 : Fin 2) * 4096 + 1 * q.val = win1_2.index t (1 : Fin 2) * 4096 + 1 * q.val; omega
  have h1 : ((cfg1.win 1).blk t).view.emb (ix2 (0 : Fin 1) (0 : Fin 1)) = ix2 (0 : Fin 1) (0 : Fin 1) := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  rw [h0, h1]

/-- An index of the matrix lies in point `t`'s output block iff each coordinate lies in the block's range on its axis. -/
theorem mem_blk (t : Fin cfg1.N) (i : S16384x4096.Idx) :
    i ∈ ((cfg1.win 2).blk t).view.set ↔ ∀ a : Fin 2, win1_2.index t a * S256x4096.size a ≤ (i a).val
      ∧ (i a).val < win1_2.index t a * S256x4096.size a + S256x4096.size a := by
  show i ∈ ((View.whole main_v6).slice (win1_2.rect t)).set ↔ _
  rw [View.set_slice_whole, Rect.mem_set_unit]
  exact Iff.rfl

/-- Every entry of the matrix is written: row `r` lies in the block of point `r / 256`, and a block spans all columns. -/
theorem cover (i : S16384x4096.Idx) :
    ∃ t : Fin cfg1.N, (cfg1.win 2).flush t = true ∧ i ∈ ((cfg1.win 2).blk t).view.set := by
  have hi0 : (i 0).val < 16384 := (i 0).isLt
  have hi1 : (i 1).val < 4096 := (i 1).isLt
  have hN : cfg1.N = 64 := N_1
  have ht : (i 0).val / 256 < cfg1.N := by rw [hN]; omega
  obtain ⟨e0, e1, e2, e3, e4, e5⟩ := index_maps ⟨(i 0).val / 256, ht⟩
  refine ⟨⟨(i 0).val / 256, ht⟩, flush1_2 _, ?_⟩
  rw [mem_blk]
  intro a
  match a with
  | ⟨0, _⟩ =>
    show win1_2.index ⟨(i 0).val / 256, ht⟩ (0 : Fin 2) * 256 ≤ (i 0).val
      ∧ (i 0).val < win1_2.index ⟨(i 0).val / 256, ht⟩ (0 : Fin 2) * 256 + 256
    rw [e4]; show (i 0).val / 256 * 256 ≤ (i 0).val ∧ (i 0).val < (i 0).val / 256 * 256 + 256; omega
  | ⟨1, _⟩ =>
    show win1_2.index ⟨(i 0).val / 256, ht⟩ (1 : Fin 2) * 4096 ≤ (i 1).val
      ∧ (i 1).val < win1_2.index ⟨(i 0).val / 256, ht⟩ (1 : Fin 2) * 4096 + 4096
    rw [e5]; omega

/-- The quantized weight matrix after the region: every entry is the ternary quantization of the weight at that entry,
    at the scale held in the one-entry scale array. -/
theorem final (c : Dev nD) :
    (dat1 (F := Ideal) V c).arrAt 2 cfg1.N
      = fun i => Cert.Quant.wq (V c main_arg1 i) (V c main_v5 (ix2 (0 : Fin 1) (0 : Fin 1))) :=
  (dat1 (F := Ideal) V c).arrAt_eq_of_cover 2 (G V c) (fun t _ => flushed_eq V c t) cover

end Cert.KernelIdeal.WeightQuant

end
-- ==== Proof.ActQuant.lean ====
/-
  The activation quantization of a quantized linear layer, as one function of the activation array.

  The activations are an 8192 x 4096 array `x`. Row `r` has the scale `c r = 128 / max eps (max_k |x (r, k)|)`, and
  entry `(r, k)` of the result is `min 127 (max (-128) (round (x (r, k) * c r))) / c r`. The array is worked through in
  32 blocks of 256 whole rows. Inside a block the largest absolute value of a row is a reduction over the block's second
  axis, kept as a 256 x 1 column, floored at `eps`, inverted into the scale and stretched back along the row; every
  other operation acts entry by entry. A block holds whole rows, so the scale of the block's row `p` at point `t` is
  the scale of the array's row `256 t + p`, and the 32 blocks, block `t` holding rows `256 t … 256 t + 255`, fill the
  array: row `r` lies in block `r / 256`.
-/
import proofs.«123339_j26405458936545_1_alg».proof.Proof.Gen.KernelIdeal.Frame
import proofs.«123339_j26405458936545_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ActQuant

open Cert.KernelIdeal Cert.KernelIdeal.Gen

variable (V : (c : Dev nD) → (b : Ref sig .tc) → Buf (Elt Ideal) ((c : Thread nD τ).loc b))

/-! ## One block: the body's value at an entry -/

/-- The largest entry of row `p` of a 256 x 4096 block: the reduction over the second axis read at `p` is the
    fold of `max` from `-inf` over that row's 4096 entries. -/
theorem rowMax_apply (v : FVec Ideal S256x4096 .f32) (h : S256x4096.Reduces [1] S256) (hφ : FKind.Formats .f32)
    (hacc : (0xFF800000#32 : BitVec 32) = 0xFF800000#32) (p : Fin 256) :
    multiReduction (F := Ideal) .maximumf [1] S256 v 0xFF800000#32 h hφ hacc (ix1 p)
      = Cert.Quant.rowMax fun k => v (ix2 p k) := by
  refine (Ideal.multiReduction_maximumf_single v _ h hφ hacc (ix1 p)).trans ?_
  unfold Cert.Quant.rowMax
  refine congrArg (fun f => Finset.fold max (Ideal.ofBits .f32 0xFF800000#32) f (Finset.univ : Finset (Fin 4096))) (funext fun k => congrArg v (funext fun a => ?_))
  match a with
  | ⟨0, _⟩ => exact Fin.ext rfl
  | ⟨1, _⟩ => exact Fin.ext rfl

/-- A vector of 256 entries viewed as a 256 x 1 column reads entry `p` at `(p, 0)`: the two indices have the same
    row-major position `p`. -/
theorem column_apply {α : Type} (v : S256.Idx → α) (h : S256.ShapeCasts S256x1) (p : Fin 256) (z : Fin 1) :
    shapeCast S256x1 v h (ix2 p z) = v (ix1 p) := by
  refine shapeCast_apply v h (ix2 p z) (ix1 p) ?_
  rw [Shape.rowMajor_val_one, Shape.rowMajor_val_two]
  show p.val = p.val * 1 + z.val
  have hz : z.val < 1 := z.isLt
  omega

/-- A 256 x 1 column stretched along the second axis to 256 x 4096 reads, at `(p, q)`, the column's entry `(p, 0)`. -/
theorem stretch_apply {α : Type} (v : S256x1.Idx → α) (h : S256x1.Broadcasts S256x4096) (p : Fin 256) (q : Fin 4096) :
    broadcastTo S256x4096 v h (ix2 p q) = v (ix2 p (0 : Fin 1)) := by
  refine broadcastTo_apply v h (ix2 p q) (ix2 p (0 : Fin 1)) fun a => ?_
  match a with
  | ⟨0, _⟩ => rfl
  | ⟨1, _⟩ => rfl

/-- Rounding to the nearest integer, ties to even, acts entry by entry. -/
theorem roundeven_apply {s : Shape} {φ : FTy} (a : FVec Ideal s φ) (i : s.Idx) :
    roundeven a i = Ideal.liftRound Ideal.roundHalfEven (a i) := rfl

/-- The body's value at entry `(p, q)` of a 256 x 4096 block `x0`: the entry made eight-bit at the scale of its own row,
    the scale coming from the largest absolute value of the block's row `p`. The row maximum is a reduction over the
    second axis; it is viewed as a column, floored, inverted into the scale and stretched back along the row, and every
    other operation acts entry by entry. -/
theorem pay_apply (x0 : Vec Ideal S256x4096 .f32) (p : Fin 256) (q : Fin 4096) :
    k2_pay1 (F := Ideal) x0 (ix2 p q)
      = Cert.Quant.xq (x0 (ix2 p q)) (Cert.Quant.xscale (Cert.Quant.rowMax fun k => Cert.Quant.absE (x0 (ix2 p k)))) := by
  unfold k2_pay1
  simp only [shapeCast_self]
  rw [truncf_apply, divf_apply, minimumf_apply, broadcast_apply, maximumf_apply, broadcast_apply, roundeven_apply,
    mulf_apply, stretch_apply, divf_apply, broadcast_apply, maximumf_apply, broadcast_apply, column_apply, rowMax_apply]
  rfl

/-! ## The whole array -/

/-- The quantized activations as one function of the activation array: entry `(r, k)` is the entry made eight-bit at
    the scale of row `r`. -/
abbrev quantRows (a : S8192x4096.Idx → EReal) : S8192x4096.Idx → EReal := fun i =>
  Cert.Quant.xq (a i) (Cert.Quant.xscale (Cert.Quant.rowMax fun k => Cert.Quant.absE (a (ix2 (⟨(i 0).val, (i 0).isLt⟩ : Fin 8192) k))))

/-- A block of 256 whole rows, rows `256 t … 256 t + 255` of the array `a`, is sent by the body to the same rows of
    `quantRows a`: a block holds whole rows, so the largest absolute value of the block's row `p` is that of the array's
    row `256 t + p` (the two rows agree entry by entry). -/
theorem block_apply (a : S8192x4096.Idx → EReal) (x0 : Vec Ideal S256x4096 .f32) (t : Nat) (ht : t < 32)
    (hx : ∀ (p : Fin 256) (q : Fin 4096), x0 (ix2 p q) = a (ix2 (⟨256 * t + p.val, by omega⟩ : Fin 8192) q))
    (p : Fin 256) (q : Fin 4096) :
    k2_pay1 (F := Ideal) x0 (ix2 p q) = quantRows a (ix2 (⟨256 * t + p.val, by omega⟩ : Fin 8192) q) := by
  rw [pay_apply, hx p q]
  show _ = Cert.Quant.xq _ (Cert.Quant.xscale (Cert.Quant.rowMax fun k => Cert.Quant.absE (a (ix2 (⟨256 * t + p.val, _⟩ : Fin 8192) k))))
  exact congrArg (fun f => Cert.Quant.xq _ (Cert.Quant.xscale (Cert.Quant.rowMax f))) (funext fun k => congrArg Cert.Quant.absE (hx p k))

/-- The zero offsets of a whole-block access, spelt as a constant function. -/
theorem offsets_zero : (![0, 0] : Fin 2 → Nat) = fun _ => 0 := funext fun a => by fin_cases a <;> rfl

/-- The two windows' index maps, decided over the 32 grid points: at point `t` both the activations' block and the
    output's block are block `(t, 0)`. -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of `quantRows` of the activations as the region finds them: entry
    `(p, q)` of either window's block at `t` is entry `(256 t + p, q)` of its array. -/
theorem flushed_eq (c : Dev nD) (t : Fin cfg2.N) :
    (dat2 (F := Ideal) V c).flushed 1 t = ((cfg2.win 1).blk t).view.read (Elt Ideal) (quantRows (V c main_v0)) := by
  show (cfg2.win 1).cut (grid2.coords t) ((dat2 V c).after 1 t) = _
  rw [after2_1]
  unfold out2_1
  rw [View.canon_unit_zero offsets_zero]
  simp only [View.ld_unit_zero (S := S256x4096) offsets_zero]
  obtain ⟨e0, e1, e2, e3⟩ := block_index t
  have ht : t.val < 32 := lt_of_lt_of_eq t.isLt N_2
  funext j
  obtain ⟨p, q, rfl⟩ : ∃ (p : Fin 256) (q : Fin 4096), j = ix2 p q := ⟨j 0, j 1, eq_ix2 j⟩
  show k2_pay1 (F := Ideal) (iblk2 V c 0 t) (ix2 p q) = quantRows (V c main_v0) (((cfg2.win 1).blk t).view.emb (ix2 p q))
  have hemb : ((cfg2.win 1).blk t).view.emb (ix2 p q) = ix2 (⟨256 * t.val + p.val, by omega⟩ : Fin 8192) q := by
    funext a; apply Fin.ext
    match a with
    | ⟨0, _⟩ => show win2_1.index t (0 : Fin 2) * 256 + 1 * p.val = 256 * t.val + p.val; omega
    | ⟨1, _⟩ => show win2_1.index t (1 : Fin 2) * 4096 + 1 * q.val = q.val; omega
  rw [hemb]
  refine block_apply (V c main_v0) (iblk2 V c 0 t) t.val ht (fun p' q' => ?_) p q
  show V c main_v0 (((cfg2.win 0).blk t).view.emb (ix2 p' q')) = _
  refine congrArg (V c main_v0) (funext fun a => Fin.ext ?_)
  match a with
  | ⟨0, _⟩ => show win2_0.index t (0 : Fin 2) * 256 + 1 * p'.val = 256 * t.val + p'.val; omega
  | ⟨1, _⟩ => show win2_0.index t (1 : Fin 2) * 4096 + 1 * q'.val = q'.val; omega

/-- An index of the array is in point `t`'s block iff each coordinate is in the block's range on its axis. -/
theorem mem_blk (t : Fin cfg2.N) (i : S8192x4096.Idx) :
    i ∈ ((cfg2.win 1).blk t).view.set ↔ ∀ a : Fin 2, win2_1.index t a * S256x4096.size a ≤ (i a).val ∧ (i a).val < win2_1.index t a * S256x4096.size a + S256x4096.size a := by
  show i ∈ ((View.whole main_v7).slice (win2_1.rect t)).set ↔ _
  rw [View.set_slice_whole, Rect.mem_set_unit]
  exact Iff.rfl

/-- Every index of the array is in some point's block: row `r` is in the block of point `r / 256`, whose rows are
    `256 (r / 256) … 256 (r / 256) + 255`, and every block holds all 4096 columns. -/
theorem cover (i : S8192x4096.Idx) :
    ∃ t : Fin cfg2.N, (cfg2.win 1).flush t = true ∧ i ∈ ((cfg2.win 1).blk t).view.set := by
  have hi0 : (i 0).val < 8192 := (i 0).isLt
  have hi1 : (i 1).val < 4096 := (i 1).isLt
  have hN : cfg2.N = 32 := N_2
  obtain ⟨t, ht⟩ : ∃ t : Fin cfg2.N, t.val = (i 0).val / 256 := ⟨⟨(i 0).val / 256, by rw [hN]; omega⟩, rfl⟩
  obtain ⟨e0, e1, e2, e3⟩ := block_index t
  refine ⟨t, flush2_1 t, ?_⟩
  rw [mem_blk]
  intro a
  match a with
  | ⟨0, _⟩ => show win2_1.index t (0 : Fin 2) * 256 ≤ (i 0).val ∧ (i 0).val < win2_1.index t (0 : Fin 2) * 256 + 256; omega
  | ⟨1, _⟩ => show win2_1.index t (1 : Fin 2) * 4096 ≤ (i 1).val ∧ (i 1).val < win2_1.index t (1 : Fin 2) * 4096 + 4096; omega

/-- The quantized-activation array after the region: entry `(r, k)` is the activation `(r, k)` made eight-bit at the
    scale `128 / max eps (max_k |x (r, k)|)` of its row. -/
theorem final (c : Dev nD) :
    (dat2 (F := Ideal) V c).arrAt 1 cfg2.N
      = fun i => Cert.Quant.xq (V c main_v0 i) (Cert.Quant.xscale (Cert.Quant.rowMax fun k => Cert.Quant.absE (V c main_v0 (ix2 (⟨(i 0).val, (i 0).isLt⟩ : Fin 8192) k)))) :=
  (dat2 V c).arrAt_eq_of_cover 1 (quantRows (V c main_v0)) (fun t _ => flushed_eq V c t) cover

end Cert.KernelIdeal.ActQuant

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.MatmulBlocks.lean ====
/-
  The matrix product of the quantized linear layer, from blocks to the whole array.

  The last region multiplies the quantized activations `X` (8192 x 4096) by the transpose of the quantized weights `W`
  (16384 x 4096) on a 16 x 16 grid: the point with coordinates `(g0, g1)` reads rows `512 * g1 ...` of `X` and rows
  `1024 * g0 ...` of `W`, forms the 512 x 1024 product of the first block with the transpose of the second, accumulated
  into zero, and writes it to block `(g1, g0)` of the 8192 x 16384 output. Over the extended reals every operation is
  exact, so the value at the block index `(p, q)` is the sum over the 4096 input features `k` of
  `X (512 * g1 + p, k) * W (1024 * g0 + q, k)`; the 256 output blocks tile the output, so the array ends holding, at
  every `(r, o)`, the sum over `k` of `X (r, k) * W (o, k)`. Both arrays are taken as the region finds them.
-/
import proofs.«123339_j26405458936545_1_alg».proof.Proof.Gen.KernelIdeal.Frame
import proofs.«123339_j26405458936545_1_alg».proof.Proof.Spec
import proofs.«123339_j26405458936545_1_alg».proof.Proof.LibDotSum
import Idealize.ShloMosaic.Lib.Pipeline.Value
import Idealize.ShloMosaic.Lib.ValueIdx
import Idealize.ShloMosaic.PureOps.Ideal.Laws
set_option maxRecDepth 16384
noncomputable section
open Idealize.ShloMosaic Idealize.ShloMosaic.TcCoe Idealize.SL.Sem Idealize.ShloMosaic.ValueIdx
open Idealize.ShloMosaic.Pipeline (Dat)
namespace Cert.KernelIdeal.MatmulBlocks
open Cert.KernelIdeal Cert.KernelIdeal.Gen
variable (V : (c : Dev nD) → (b : Ref sig .tc) → Buf (Elt Ideal) ((c : Thread nD τ).loc b))

/-- The block product at an index. For a 512 x 4096 block `x0` of the activations and a 1024 x 4096 block `x1` of the
    weights, the body's value at `(p, q)` is the matrix product of `x0` with the transpose of `x1`, accumulated into
    the zero splat: the sum over the 4096 input features `k` of `x0 (p, k) * x1 (q, k)`. The contraction index of the
    dot record is carried to `Fin 4096`; the transposed right operand at `(k, q)` is `x1` at `(q, k)`; the two shape
    casts to the same shape are the identity. -/
theorem pay_apply (x0 : Vec Ideal S512x4096 .bf16) (x1 : Vec Ideal S1024x4096 .bf16) (p : Fin 512) (q : Fin 1024) :
    k3_pay1 x0 x1 (ix2 p q) = ∑ k : Fin 4096, x0 (ix2 p k) * x1 (ix2 q k) := by
  unfold k3_pay1
  refine (Ideal.matmul_constant_zero_apply dot_S512x4096_S4096x1024_S512x1024_1_0_0_1_n_n none _ _ (ix2 p q)).trans ?_
  refine (Cert.LibDotSum.sum_contr_eq_sum_fin dot_S512x4096_S4096x1024_S512x1024_1_0_0_1_n_n rfl rfl
    (fun _ _ => rfl)
    (fun j k => dot_S512x4096_S4096x1024_S512x1024_1_0_0_1_n_n.lhsIdx_val_of_single (cl := 1) rfl j k)
    (fun j k => dot_S512x4096_S4096x1024_S512x1024_1_0_0_1_n_n.rhsIdx_val_of_single (cr := 0) rfl j k)
    (fun _ _ => rfl) _ _ (ix2 p q)).trans ?_
  refine Finset.sum_congr rfl fun k _ => ?_
  refine congrArg₂ (· * ·) (congrFun (shapeCast_self x0 _) (ix2 p k)) ?_
  refine (transpose_apply [1, 0] _ _ (ix2 k q) (ix2 q k) fun b => ?_).trans (congrFun (shapeCast_self x1 _) (ix2 q k))
  match b with
  | ⟨0, _⟩ => rfl
  | ⟨1, _⟩ => rfl

/-- The offsets `[0, 0]` of a whole-buffer access are the zero function. -/
theorem zero_offsets : (![0, 0] : Fin 2 → Nat) = fun _ => 0 := funext fun a => by fin_cases a <;> rfl

/-- The layer's output as one function of the two quantized arrays: the entry at `(r, o)` is the sum over the 4096 input
    features `k` of `X (r, k) * W (o, k)`. -/
abbrev layerOut (X : S8192x4096.Idx → EReal) (W : S16384x4096.Idx → EReal) : S8192x16384.Idx → EReal :=
  fun i => ∑ k : Fin 4096, X (ix2 (⟨(i 0).val, (i 0).isLt⟩ : Fin 8192) k) * W (ix2 (⟨(i 1).val, (i 1).isLt⟩ : Fin 16384) k)

/-- The three index maps over the 16 x 16 grid, whose point `t` has coordinates `(t / 16, t % 16)`: the activations'
    block is row block `t % 16`, the weights' block is row block `t / 16`, both at column block 0, and the output's
    block is `(t % 16, t / 16)`. Decided point by point. -/
theorem index_maps : ∀ t : Fin cfg3.N,
    win3_0.index t (0 : Fin 2) = t.val % 16 ∧ win3_0.index t (1 : Fin 2) = 0
    ∧ win3_1.index t (0 : Fin 2) = t.val / 16 ∧ win3_1.index t (1 : Fin 2) = 0
    ∧ win3_2.index t (0 : Fin 2) = t.val % 16 ∧ win3_2.index t (1 : Fin 2) = t.val / 16 :=
  (by decide +kernel : ∀ t : Fin grid3.N,
    win3_0.index t (0 : Fin 2) = t.val % 16 ∧ win3_0.index t (1 : Fin 2) = 0
    ∧ win3_1.index t (0 : Fin 2) = t.val / 16 ∧ win3_1.index t (1 : Fin 2) = 0
    ∧ win3_2.index t (0 : Fin 2) = t.val % 16 ∧ win3_2.index t (1 : Fin 2) = t.val / 16)

/-- What grid point `t` writes back is block `t` of `layerOut` of the two arrays as the region finds them: at the index
    `(p, q)` of the 512 x 1024 block the body's sum runs over row `512 * (t % 16) + p` of the activations (its block at
    `t` starts at row block `t % 16`, column 0) and row `1024 * (t / 16) + q` of the weights (row block `t / 16`), and
    the output's block `(t % 16, t / 16)` puts that index at the same two rows. -/
theorem flushed_eq (c : Dev nD) (t : Fin cfg3.N) :
    (dat3 (F := Ideal) V c).flushed 2 t
      = ((cfg3.win 2).blk t).view.read (Elt Ideal) (layerOut (V c main_v7) (V c main_v6)) := by
  show (cfg3.win 2).cut (grid3.coords t) ((dat3 (F := Ideal) V c).after 2 t) = _
  rw [after3_2]
  unfold out3_2
  rw [View.canon_unit_zero zero_offsets]
  simp only [View.ld_unit_zero (S := S512x4096) zero_offsets, View.ld_unit_zero (S := S1024x4096) zero_offsets]
  obtain ⟨e0, e1, e2, e3, e4, e5⟩ := index_maps t
  funext j
  obtain ⟨p, q, rfl⟩ : ∃ (p : Fin 512) (q : Fin 1024), j = ix2 p q := ⟨j 0, j 1, eq_ix2 j⟩
  show k3_pay1 (iblk3 V c 0 t) (iblk3 V c 1 t) (ix2 p q)
    = layerOut (V c main_v7) (V c main_v6) (((cfg3.win 2).blk t).view.emb (ix2 p q))
  refine (pay_apply _ _ p q).trans ?_
  refine Finset.sum_congr rfl fun k _ => ?_
  refine congrArg₂ (· * ·) ?_ ?_
  · show V c main_v7 (((cfg3.win 0).blk t).view.emb (ix2 p k)) = V c main_v7 (ix2 _ k)
    refine congrArg (V c main_v7) (funext fun a => Fin.ext ?_)
    match a with
    | ⟨0, _⟩ =>
      show win3_0.index t (0 : Fin 2) * 512 + 1 * p.val = win3_2.index t (0 : Fin 2) * 512 + 1 * p.val
      omega
    | ⟨1, _⟩ =>
      show win3_0.index t (1 : Fin 2) * 4096 + 1 * k.val = k.val
      omega
  · show V c main_v6 (((cfg3.win 1).blk t).view.emb (ix2 q k)) = V c main_v6 (ix2 _ k)
    refine congrArg (V c main_v6) (funext fun a => Fin.ext ?_)
    match a with
    | ⟨0, _⟩ =>
      show win3_1.index t (0 : Fin 2) * 1024 + 1 * q.val = win3_2.index t (1 : Fin 2) * 1024 + 1 * q.val
      omega
    | ⟨1, _⟩ =>
      show win3_1.index t (1 : Fin 2) * 4096 + 1 * k.val = k.val
      omega

/-- An index of the output array is in point `t`'s block iff each coordinate is in the block's range on its axis. -/
theorem mem_blk (t : Fin cfg3.N) (i : S8192x16384.Idx) :
    i ∈ ((cfg3.win 2).blk t).view.set ↔ ∀ a : Fin 2, win3_2.index t a * S512x1024.size a ≤ (i a).val
      ∧ (i a).val < win3_2.index t a * S512x1024.size a + S512x1024.size a := by
  show i ∈ ((View.whole main_v8).slice (win3_2.rect t)).set ↔ _
  rw [View.set_slice_whole, Rect.mem_set_unit]
  exact Iff.rfl

/-- Every index `(r, o)` of the 8192 x 16384 output is in the block of the grid point with coordinates
    `(o / 1024, r / 512)`, the point number `16 * (o / 1024) + r / 512`; every point writes its block back. -/
theorem cover (i : S8192x16384.Idx) :
    ∃ t : Fin cfg3.N, (cfg3.win 2).flush t = true ∧ i ∈ ((cfg3.win 2).blk t).view.set := by
  have hr : (i 0).val < 8192 := (i 0).isLt
  have ho : (i 1).val < 16384 := (i 1).isLt
  obtain ⟨t, ht⟩ : ∃ t : Fin cfg3.N, t.val = (i 1).val / 1024 * 16 + (i 0).val / 512 :=
    ⟨⟨(i 1).val / 1024 * 16 + (i 0).val / 512, by rw [show cfg3.N = 256 from N_3]; omega⟩, rfl⟩
  obtain ⟨-, -, -, -, e4, e5⟩ := index_maps t
  refine ⟨t, flush3_2 t, ?_⟩
  rw [mem_blk]
  intro a
  match a with
  | ⟨0, _⟩ =>
    show win3_2.index t (0 : Fin 2) * 512 ≤ (i 0).val ∧ (i 0).val < win3_2.index t (0 : Fin 2) * 512 + 512
    omega
  | ⟨1, _⟩ =>
    show win3_2.index t (1 : Fin 2) * 1024 ≤ (i 1).val ∧ (i 1).val < win3_2.index t (1 : Fin 2) * 1024 + 1024
    omega

/-- The output array after the matmul region: at `(r, o)` the sum over the 4096 input features `k` of the quantized
    activation `(r, k)` times the quantized weight `(o, k)`, both as the region finds them. -/
theorem final (c : Dev nD) :
    (dat3 (F := Ideal) V c).arrAt 2 cfg3.N
      = fun i => ∑ k : Fin 4096,
          @HMul.hMul EReal EReal EReal _ (V c main_v7 (ix2 (⟨(i 0).val, (i 0).isLt⟩ : Fin 8192) k))
            (V c main_v6 (ix2 (⟨(i 1).val, (i 1).isLt⟩ : Fin 16384) k)) :=
  (dat3 (F := Ideal) V c).arrAt_eq_of_cover 2 (layerOut (V c main_v7) (V c main_v6)) (fun t _ => flushed_eq V c t) cover

end Cert.KernelIdeal.MatmulBlocks
end
-- ==== Proof.KernelValue.lean ====
/-
  What the idealized kernel's result buffer ends holding: the quantized linear layer of the two arguments as launched.

  Read back from the result: the last reshape gives entry `(b, s, o)` as entry `(2048 b + s, o)` of the matmul's output
  array; that is the sum over the input features of the products of the two quantized arrays the matmul region finds;
  the quantized activations' row `2048 b + s` was written by the activation region from row `(b, s)` of the activations as
  launched (re-laid before the first region), at that row's scale; the quantized weights were written by the weight
  region from the weights as launched, at the scale the host made from the sum the first region accumulated.
-/
import proofs.«123339_j26405458936545_1_alg».proof.Proof.Fold
import proofs.«123339_j26405458936545_1_alg».proof.Proof.Relayout
import proofs.«123339_j26405458936545_1_alg».proof.Proof.Layer
import proofs.«123339_j26405458936545_1_alg».proof.Proof.WeightSum
import proofs.«123339_j26405458936545_1_alg».proof.Proof.WeightQuant
import proofs.«123339_j26405458936545_1_alg».proof.Proof.ActQuant
import proofs.«123339_j26405458936545_1_alg».proof.Proof.MatmulBlocks
import Idealize.ShloMosaic.Lib.ValueIdx
import Idealize.ShloMosaic.PureOps.Ideal.Laws

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The accumulator after region 0 holds the sum of the absolute values of all the weights as launched. -/
theorem sum_apply (c : Dev nD) :
    W2 m ρ c (Proc.devRef .tc main_v1) (ix2 (0 : Fin 1) (0 : Fin 1))
      = ∑ j : S16384x4096.Idx, Cert.Quant.absE (m ((c : Thread nD τ).loc main_arg1) j) := by
  rw [Cert.KernelIdeal.Fold.sum_after, Cert.KernelIdeal.WeightSum.final (V1 m ρ) c]
  show ∑ j : S16384x4096.Idx, Cert.Quant.absE (V1 m ρ c main_arg1 j) = _
  rw [Cert.KernelIdeal.Fold.weights_at_sum]

/-- Region 1 finds the matrix scale of the weights as launched in the 1 x 1 scale buffer. -/
theorem scale_apply (c : Dev nD) :
    V5 m ρ c main_v5 (ix2 (0 : Fin 1) (0 : Fin 1)) = Cert.Layer.matScale (m ((c : Thread nD τ).loc main_arg1)) := by
  rw [Cert.KernelIdeal.Fold.scale_at_quant, Cert.Relayout.of_scalar_apply]
  show max (Ideal.ofBits .f32 0x3727C5AC#32)
      (Ideal.div (shapeCast S_ (W2 m ρ c (Proc.devRef .tc main_v1)) shapeCasts_S1x1_S_ ix0) (Ideal.ofBits .f32 0x4C800000#32)) = _
  rw [Cert.Relayout.to_scalar_apply, sum_apply]
  rfl

/-- The quantized weights, as the matmul finds them: each weight as launched, at the matrix scale. -/
theorem qweights_apply (c : Dev nD) (o : Fin 16384) (k : Fin 4096) :
    V7 m ρ c main_v6 (ix2 o k)
      = Cert.Quant.wq (m ((c : Thread nD τ).loc main_arg1) (ix2 o k)) (Cert.Layer.matScale (m ((c : Thread nD τ).loc main_arg1))) := by
  rw [Cert.KernelIdeal.Fold.qweights_at_matmul, Cert.KernelIdeal.WeightQuant.final (V5 m ρ) c]
  show Cert.Quant.wq (V5 m ρ c main_arg1 (ix2 o k)) (V5 m ρ c main_v5 (ix2 (0 : Fin 1) (0 : Fin 1))) = _
  rw [scale_apply, Cert.KernelIdeal.Fold.weights_at_quant]

/-- The re-laid activations, as region 2 finds them: row `2048 b + s` is row `(b, s)` of the activations as launched. -/
theorem acts_apply (c : Dev nD) (b : Fin 4) (s : Fin 2048) (k : Fin 4096) (r : Fin 8192) (hr : r.val = 2048 * b.val + s.val) :
    V6 m ρ c main_v0 (ix2 r k) = m ((c : Thread nD τ).loc main_arg0) (ix3 b s k) := by
  rw [Cert.KernelIdeal.Fold.acts_at_quant]
  exact Cert.Relayout.rows_apply _ _ b s k r hr

/-- The quantized activations, as the matmul finds them: each activation as launched, at its row's scale. -/
theorem qacts_apply (c : Dev nD) (b : Fin 4) (s : Fin 2048) (k : Fin 4096) (r : Fin 8192) (hr : r.val = 2048 * b.val + s.val) :
    V7 m ρ c main_v7 (ix2 r k)
      = Cert.Quant.xq (m ((c : Thread nD τ).loc main_arg0) (ix3 b s k)) (Cert.Layer.rowScale (m ((c : Thread nD τ).loc main_arg0)) b s) := by
  rw [Cert.KernelIdeal.Fold.qacts_at_matmul, Cert.KernelIdeal.ActQuant.final (V6 m ρ) c]
  show Cert.Quant.xq (V6 m ρ c main_v0 (ix2 r k))
      (Cert.Quant.xscale (Cert.Quant.rowMax fun k' => Cert.Quant.absE (V6 m ρ c main_v0 (ix2 r k')))) = _
  rw [acts_apply m ρ c b s k r hr]
  have e : (fun k' => Cert.Quant.absE (V6 m ρ c main_v0 (ix2 r k')))
      = fun k' => Cert.Quant.absE (m ((c : Thread nD τ).loc main_arg0) (ix3 b s k')) :=
    funext fun k' => congrArg Cert.Quant.absE (acts_apply m ρ c b s k' r hr)
  rw [e]
  rfl

/-- The result buffer's entry `(b, s, o)` is the layer's output entry of the two arguments as launched. -/
theorem result_apply (c : Dev nD) (b : Fin 4) (s : Fin 2048) (o : Fin 16384) :
    @Eq EReal (W9 m ρ c (Proc.devRef .tc main_v9) (ix3 b s o))
      (Cert.Layer.entry (m ((c : Thread nD τ).loc main_arg0)) (m ((c : Thread nD τ).loc main_arg1)) b s o) := by
  have hr : (⟨2048 * b.val + s.val, by have := b.isLt; have := s.isLt; omega⟩ : Fin 8192).val = 2048 * b.val + s.val := rfl
  rw [Cert.KernelIdeal.Fold.result_after,
    Cert.Relayout.unrows_apply _ _ b s o ⟨2048 * b.val + s.val, by have := b.isLt; have := s.isLt; omega⟩ hr,
    Cert.KernelIdeal.MatmulBlocks.final (V7 m ρ) c]
  unfold Cert.Layer.entry
  refine Finset.sum_congr rfl fun k _ => ?_
  exact congrArg₂ (fun a b : EReal => a * b) (qacts_apply m ρ c b s k _ hr) (qweights_apply m ρ c o k)

/-- The result buffer ends holding the layer's output of the two arguments as launched. -/
theorem result (c : Dev nD) :
    W9 m ρ c (Proc.devRef .tc main_v9)
      = Cert.Layer.out (m ((c : Thread nD τ).loc main_arg0)) (m ((c : Thread nD τ).loc main_arg1)) := by
  funext i
  obtain ⟨b, s, o, rfl⟩ : ∃ (b : Fin 4) (s : Fin 2048) (o : Fin 16384), i = ix3 b s o := ⟨i 0, i 1, i 2, eq_ix3 i⟩
  exact result_apply m ρ c b s o

end Cert.KernelIdeal.KValue

end
-- ==== Proof.RefRun.lean ====
/-
  The reference program's run, read back.

  The reference is a straight line of 46 host operations (the bodies of the called clip and round functions stand at
  their call sites): the row maxima of |x|, the activation scale and the quantized activations; the sum of |w|, the weight
  scale and the quantized weights; one dot_general contracting the input features. Every weakly fair execution
  terminates, and the result buffer holds the last operation's value as a function of the two argument arrays as
  launched — stated here as the named last stage `val_main_v22` —, the arguments unchanged.
  An operation of a called function's body reaches its buffers through typed references; such a reference converts between a
  buffer's contents and a value of the buffer's type, and both types are the same by computation, so the operation is
  the plain one on the buffers themselves. The list below spells every operation that way, and the program is that
  list by computation.
-/
import proofs.«123339_j26405458936545_1_alg».proof.Proof.Gen.ReferenceIdeal
import proofs.«123339_j26405458936545_1_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 46 operations, in order. -/
abbrev ops : List (HloOp τ sig (Elt F)) :=
  [ unary main_arg0 main_v0 (Host.absf : (⟨S4x2048x4096, .f32⟩ : BufTy).Contents (Elt F) → (⟨S4x2048x4096, .f32⟩ : BufTy).Contents (Elt F)),
    nullary main_cst (constant S_ .f32 0xFF800000#32),
    binary main_v0 main_cst main_v1 ((fun x v => Host.reduce FloatOps.maximumf x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    unary main_cst_0 main_call0_v0 (id : (⟨S_, .f32⟩ : BufTy).Contents (Elt F) → (⟨S_, .f32⟩ : BufTy).Contents (Elt F)),
    unary main_call0_v0 main_call0_v1 (broadcastInDim S4x2048x1 ![] bcast_S_S4x2048x1 : (⟨S_, .f32⟩ : BufTy).Contents (Elt F) → (⟨S4x2048x1, .f32⟩ : BufTy).Contents (Elt F)),
    binary main_call0_v1 main_v2 main_v3 (maximumf : (⟨S4x2048x1, .f32⟩ : BufTy).Contents (Elt F) → (⟨S4x2048x1, .f32⟩ : BufTy).Contents (Elt F) → (⟨S4x2048x1, .f32⟩ : BufTy).Contents (Elt F)),
    nullary main_cst_1 (constant S_ .f32 0x43000000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_arg0 main_v6 main_v7 (mulf : (⟨S4x2048x4096, .f32⟩ : BufTy).Contents (Elt F) → (⟨S4x2048x4096, .f32⟩ : BufTy).Contents (Elt F) → (⟨S4x2048x4096, .f32⟩ : BufTy).Contents (Elt F)),
    unary main_v7 main_v8 (Host.roundeven : (⟨S4x2048x4096, .f32⟩ : BufTy).Contents (Elt F) → (⟨S4x2048x4096, .f32⟩ : BufTy).Contents (Elt F)),
    nullary main_cst_2 (constant S_ .f32 0xC3000000#32),
    nullary main_cst_3 (constant S_ .f32 0x42FE0000#32),
    unary main_cst_2 main_call2_v0 (id : (⟨S_, .f32⟩ : BufTy).Contents (Elt F) → (⟨S_, .f32⟩ : BufTy).Contents (Elt F)),
    unary main_call2_v0 main_call2_v1 (broadcastInDim S4x2048x4096 ![] bcast_S_S4x2048x4096 : (⟨S_, .f32⟩ : BufTy).Contents (Elt F) → (⟨S4x2048x4096, .f32⟩ : BufTy).Contents (Elt F)),
    binary main_call2_v1 main_v8 main_call2_v2 (maximumf : (⟨S4x2048x4096, .f32⟩ : BufTy).Contents (Elt F) → (⟨S4x2048x4096, .f32⟩ : BufTy).Contents (Elt F) → (⟨S4x2048x4096, .f32⟩ : BufTy).Contents (Elt F)),
    unary main_cst_3 main_call2_v3 (id : (⟨S_, .f32⟩ : BufTy).Contents (Elt F) → (⟨S_, .f32⟩ : BufTy).Contents (Elt F)),
    unary main_call2_v3 main_call2_v4 (broadcastInDim S4x2048x4096 ![] bcast_S_S4x2048x4096 : (⟨S_, .f32⟩ : BufTy).Contents (Elt F) → (⟨S4x2048x4096, .f32⟩ : BufTy).Contents (Elt F)),
    binary main_call2_v4 main_call2_v2 main_v9 (minimumf : (⟨S4x2048x4096, .f32⟩ : BufTy).Contents (Elt F) → (⟨S4x2048x4096, .f32⟩ : BufTy).Contents (Elt F) → (⟨S4x2048x4096, .f32⟩ : BufTy).Contents (Elt F)),
    unary main_v5 main_v10 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    binary main_v9 main_v10 main_v11 (Host.divf : (⟨S4x2048x4096, .f32⟩ : BufTy).Contents (Elt F) → (⟨S4x2048x4096, .f32⟩ : BufTy).Contents (Elt F) → (⟨S4x2048x4096, .f32⟩ : BufTy).Contents (Elt F)),
    unary main_arg1 main_v12 (Host.absf : (⟨S16384x4096, .f32⟩ : BufTy).Contents (Elt F) → (⟨S16384x4096, .f32⟩ : BufTy).Contents (Elt F)),
    nullary main_cst_4 (constant S_ .f32 0x00000000#32),
    binary main_v12 main_cst_4 main_v13 ((fun x v => Host.reduceAdd x v reducesTo_S16384x4096_S_d0_1 h_S_) : (⟨S16384x4096, .f32⟩ : BufTy).Contents (Elt F) → (⟨S_, .f32⟩ : BufTy).Contents (Elt F) → (⟨S_, .f32⟩ : BufTy).Contents (Elt F)),
    nullary main_cst_5 (constant S_ .f32 0x4C800000#32),
    binary main_v13 main_cst_5 main_v14 (Host.divf : (⟨S_, .f32⟩ : BufTy).Contents (Elt F) → (⟨S_, .f32⟩ : BufTy).Contents (Elt F) → (⟨S_, .f32⟩ : BufTy).Contents (Elt F)),
    nullary main_cst_6 (constant S_ .f32 0x3727C5AC#32),
    unary main_cst_6 main_call3_v0 (id : (⟨S_, .f32⟩ : BufTy).Contents (Elt F) → (⟨S_, .f32⟩ : BufTy).Contents (Elt F)),
    binary main_call3_v0 main_v14 main_v15 (maximumf : (⟨S_, .f32⟩ : BufTy).Contents (Elt F) → (⟨S_, .f32⟩ : BufTy).Contents (Elt F) → (⟨S_, .f32⟩ : BufTy).Contents (Elt F)),
    unary main_v15 main_v16 (broadcastInDim S16384x4096 ![] bcast_S_S16384x4096 : (⟨S_, .f32⟩ : BufTy).Contents (Elt F) → (⟨S16384x4096, .f32⟩ : BufTy).Contents (Elt F)),
    binary main_arg1 main_v16 main_v17 (Host.divf : (⟨S16384x4096, .f32⟩ : BufTy).Contents (Elt F) → (⟨S16384x4096, .f32⟩ : BufTy).Contents (Elt F) → (⟨S16384x4096, .f32⟩ : BufTy).Contents (Elt F)),
    unary main_v17 main_v18 (Host.roundeven : (⟨S16384x4096, .f32⟩ : BufTy).Contents (Elt F) → (⟨S16384x4096, .f32⟩ : BufTy).Contents (Elt F)),
    nullary main_cst_7 (constant S_ .f32 0xBF800000#32),
    nullary main_cst_8 (constant S_ .f32 0x3F800000#32),
    unary main_cst_7 main_call5_v0 (id : (⟨S_, .f32⟩ : BufTy).Contents (Elt F) → (⟨S_, .f32⟩ : BufTy).Contents (Elt F)),
    unary main_call5_v0 main_call5_v1 (broadcastInDim S16384x4096 ![] bcast_S_S16384x4096 : (⟨S_, .f32⟩ : BufTy).Contents (Elt F) → (⟨S16384x4096, .f32⟩ : BufTy).Contents (Elt F)),
    binary main_call5_v1 main_v18 main_call5_v2 (maximumf : (⟨S16384x4096, .f32⟩ : BufTy).Contents (Elt F) → (⟨S16384x4096, .f32⟩ : BufTy).Contents (Elt F) → (⟨S16384x4096, .f32⟩ : BufTy).Contents (Elt F)),
    unary main_cst_8 main_call5_v3 (id : (⟨S_, .f32⟩ : BufTy).Contents (Elt F) → (⟨S_, .f32⟩ : BufTy).Contents (Elt F)),
    unary main_call5_v3 main_call5_v4 (broadcastInDim S16384x4096 ![] bcast_S_S16384x4096 : (⟨S_, .f32⟩ : BufTy).Contents (Elt F) → (⟨S16384x4096, .f32⟩ : BufTy).Contents (Elt F)),
    binary main_call5_v4 main_call5_v2 main_v19 (minimumf : (⟨S16384x4096, .f32⟩ : BufTy).Contents (Elt F) → (⟨S16384x4096, .f32⟩ : BufTy).Contents (Elt F) → (⟨S16384x4096, .f32⟩ : BufTy).Contents (Elt F)),
    unary main_v15 main_v20 (broadcastInDim S16384x4096 ![] bcast_S_S16384x4096 : (⟨S_, .f32⟩ : BufTy).Contents (Elt F) → (⟨S16384x4096, .f32⟩ : BufTy).Contents (Elt F)),
    binary main_v19 main_v20 main_v21 (mulf : (⟨S16384x4096, .f32⟩ : BufTy).Contents (Elt F) → (⟨S16384x4096, .f32⟩ : BufTy).Contents (Elt F) → (⟨S16384x4096, .f32⟩ : BufTy).Contents (Elt F)),
    binary main_v11 main_v21 main_v22 ((fun l r => Host.dotGeneral dot_S4x2048x4096_S16384x4096_S4x2048x16384_2_1_01_0_n_n none l r) : (⟨S4x2048x4096, .f32⟩ : BufTy).Contents (Elt F) → (⟨S16384x4096, .f32⟩ : BufTy).Contents (Elt F) → (⟨S4x2048x16384, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nullary_bufs_sub .., binary_bufs_sub .., nullary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub ..⟩

/-! ## The run -/

set_option maxRecDepth 8192 in
set_option maxHeartbeats 2000000 in
/-- From any memory with zero counters every weakly fair execution terminates with the result at the last stage of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = Cert.ReferenceIdeal.ReadP.val_main_v22 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by
        after_results_simp
        exact Cert.ReferenceIdeal.ReadP.val_main_v22_eq (F := F) _ _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference program read as the quantized linear layer.

  The reference computes the layer in stages over whole arrays. Read at an index, stage by stage: the weight scale is
  `max eps (S / 2^26)` with `S` the sum of `|w|` over the whole matrix (the sum starts from zero, which adds nothing); the
  quantized weight at `(o, k)` is `min 1 (max (-1) (round (w / scale))) * scale`; the scale of activation row `(b, s)` is
  `128 / max eps M` with `M` the maximum of `|x|` over the row's 4096 entries, a reduction over the last axis that is
  the fold of `max` from `-inf` over that axis's coordinates; the quantized activation at `(b, s, k)` is
  `min 127 (max (-128) (round (x * c))) / c` at its row's scale `c`; and the output entry `(b, s, o)` is the sum over
  `k` of quantized activation `(b, s, k)` times quantized weight `(o, k)`. Broadcasts read their operand at the index
  with the broadcast axes dropped, so each scale is the same at every entry it is broadcast to.
-/
import proofs.«123339_j26405458936545_1_alg».proof.Proof.RefRead
import proofs.«123339_j26405458936545_1_alg».proof.Proof.Layer
import proofs.«123339_j26405458936545_1_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.ReferenceIdeal.RefValue

open Cert.ReferenceIdeal Cert.ReferenceIdeal.Gen Cert.ReferenceIdeal.ReadP

/-- The weight scale the reference computes: the floor `eps` against the sum of all absolute values over `2^26`. -/
theorem matScale_apply (x1 : (⟨S16384x4096, .f32⟩ : BufTy).Contents (Elt Ideal)) (j : S_.Idx) :
    val_main_v15 (F := Ideal) x1 j = Cert.Layer.matScale x1 := by
  rw [val_main_v15_apply, val_main_call3_v0_apply, val_main_cst_6_apply, val_main_v14_apply, val_main_v13_apply,
    val_main_cst_4_apply, val_main_cst_5_apply]
  simp only [val_main_v12_apply, Ideal.ofBits_def, Ideal.maximumf_def, Ideal.hostDivf_def, Ideal.hostAbsf_def,
    Ideal.absf_def, Ideal.ofBits_zero_f32, zero_add]
  rfl

/-- The reference's quantized weight at `(o, k)`: the weight divided by the matrix scale, rounded, clipped to `[-1, 1]`,
    times the scale. -/
theorem wq_apply (x1 : (⟨S16384x4096, .f32⟩ : BufTy).Contents (Elt Ideal)) (o : Fin 16384) (k : Fin 4096) :
    val_main_v21 (F := Ideal) x1 (ix2 o k) = Cert.Quant.wq (x1 (ix2 o k)) (Cert.Layer.matScale x1) := by
  rw [val_main_v21_apply, val_main_v19_apply, val_main_call5_v4_apply, val_main_call5_v3_apply, val_main_cst_8_apply,
    val_main_call5_v2_apply, val_main_call5_v1_apply, val_main_call5_v0_apply, val_main_cst_7_apply,
    val_main_v18_apply, val_main_v17_apply, val_main_v16_apply, val_main_v20_apply, matScale_apply]
  simp only [Ideal.ofBits_def, Ideal.mulf_def, Ideal.minimumf_def, Ideal.maximumf_def, Ideal.hostDivf_def,
    Ideal.hostUnary_roundeven_def]
  rfl

/-- The reference's row maximum of absolute values, at row `(b, s)`: the fold of `max` from `-inf` over the row's
    4096 entries (a reduction over the last axis is the fold over that axis's coordinates, the maximum being
    commutative and associative). -/
theorem rowMax_apply (x0 : (⟨S4x2048x4096, .f32⟩ : BufTy).Contents (Elt Ideal)) (b : Fin 4) (s : Fin 2048) :
    val_main_v1 (F := Ideal) x0 (ix2 b s) = Cert.Quant.rowMax fun k => Cert.Quant.absE (x0 (ix3 b s k)) := by
  have h : S4x2048x4096.Reduces [2] S4x2048 := by decide
  have key := Host.reduce_eq_fold_single (α := Ideal .f32) (s := S4x2048x4096) (t := S4x2048) (u := S_)
    (FloatOps.maximumf (F := Ideal) (φ := .f32)) (val_main_v0 (F := Ideal) x0) (val_main_cst (F := Ideal))
    reducesTo_S4x2048x4096_S4x2048_d2 h h_S_ (ix2 b s)
  have hf : (val_main_v0 (F := Ideal) x0 ∘ h.lift (ix2 b s))
      = fun k : Fin 4096 => Cert.Quant.absE (x0 (ix3 b s k)) := by
    funext k
    have e : h.lift (ix2 b s) k = ix3 b s k := by
      funext c; apply Fin.ext
      match c with
      | ⟨0, _⟩ => rfl
      | ⟨1, _⟩ => rfl
      | ⟨2, _⟩ => rfl
    show val_main_v0 (F := Ideal) x0 (h.lift (ix2 b s) k) = _
    rw [e]; rfl
  rw [hf] at key
  unfold val_main_v1
  refine key.trans ?_
  rfl

/-- The reference's activation scale of row `(b, s)`: `128` over the row maximum floored at `eps`. -/
theorem rowScale_apply (x0 : (⟨S4x2048x4096, .f32⟩ : BufTy).Contents (Elt Ideal)) (b : Fin 4) (s : Fin 2048) :
    val_main_v5 (F := Ideal) x0 (ix3 b s (0 : Fin 1)) = Cert.Layer.rowScale x0 b s := by
  have e2 : idx_main_v2 (ix3 b s (0 : Fin 1)) = ix2 b s := by
    funext a
    match a with
    | ⟨0, _⟩ => rfl
    | ⟨1, _⟩ => rfl
  rw [val_main_v5_apply, val_main_v4_apply, val_main_cst_1_apply, val_main_v3_apply, val_main_call0_v1_apply,
    val_main_call0_v0_apply, val_main_cst_0_apply, val_main_v2_apply, e2, rowMax_apply]
  simp only [Ideal.ofBits_def, Ideal.hostDivf_def, Ideal.maximumf_def]
  rfl

/-- The reference's quantized activation at `(b, s, k)`: the activation times its row's scale, rounded, clipped to
    `[-128, 127]`, over the scale. -/
theorem xq_apply (x0 : (⟨S4x2048x4096, .f32⟩ : BufTy).Contents (Elt Ideal)) (b : Fin 4) (s : Fin 2048) (k : Fin 4096) :
    val_main_v11 (F := Ideal) x0 (ix3 b s k) = Cert.Quant.xq (x0 (ix3 b s k)) (Cert.Layer.rowScale x0 b s) := by
  have e6 : idx_main_v6 (ix3 b s k) = ix3 b s (0 : Fin 1) := by
    funext a
    match a with
    | ⟨0, _⟩ => rfl
    | ⟨1, _⟩ => rfl
    | ⟨2, _⟩ => rfl
  have e10 : idx_main_v10 (ix3 b s k) = ix3 b s (0 : Fin 1) := by
    funext a
    match a with
    | ⟨0, _⟩ => rfl
    | ⟨1, _⟩ => rfl
    | ⟨2, _⟩ => rfl
  rw [val_main_v11_apply, val_main_v9_apply, val_main_call2_v4_apply, val_main_call2_v3_apply, val_main_cst_3_apply,
    val_main_call2_v2_apply, val_main_call2_v1_apply, val_main_call2_v0_apply, val_main_cst_2_apply,
    val_main_v8_apply, val_main_v7_apply, val_main_v6_apply, e6, val_main_v10_apply, e10, rowScale_apply]
  simp only [Ideal.ofBits_def, Ideal.mulf_def, Ideal.minimumf_def, Ideal.maximumf_def, Ideal.hostDivf_def,
    Ideal.hostUnary_roundeven_def]
  rfl

/-- The reference's output array is the layer: entry `(b, s, o)` is the sum over the 4096 input features of the quantized
    activation times the quantized weight. -/
theorem result (x0 : (⟨S4x2048x4096, .f32⟩ : BufTy).Contents (Elt Ideal))
    (x1 : (⟨S16384x4096, .f32⟩ : BufTy).Contents (Elt Ideal)) :
    val_main_v22 (F := Ideal) x0 x1 = Cert.Layer.out x0 x1 := by
  funext i
  obtain ⟨b, s, o, rfl⟩ : ∃ (b : Fin 4) (s : Fin 2048) (o : Fin 16384), i = ix3 b s o := ⟨i 0, i 1, i 2, eq_ix3 i⟩
  rw [val_main_v22_apply]
  show _ = Cert.Layer.entry x0 x1 b s o
  unfold Cert.Layer.entry
  refine Finset.sum_congr rfl fun k _ => ?_
  have el : lidx_main_v22 (ix3 b s o) k = ix3 b s k := by
    funext a
    match a with
    | ⟨0, _⟩ => rfl
    | ⟨1, _⟩ => rfl
    | ⟨2, _⟩ => rfl
  have er : ridx_main_v22 (ix3 b s o) k = ix2 o k := by
    funext a
    match a with
    | ⟨0, _⟩ => rfl
    | ⟨1, _⟩ => rfl
  rw [el, er, xq_apply, wq_apply]

end Cert.ReferenceIdeal.RefValue

end
-- ==== Proof.lean ====
/-
  The certificate of the quantized linear layer.

  Both idealized programs compute, entry by entry over the extended reals, the same function of the two argument
  arrays: the sum over the 4096 input features of the product of a quantized activation — rounded to an integer in
  [-128, 127] at its row's scale `128 / max eps (max |x|)` and divided back — with a quantized weight — rounded to
  {-1, 0, 1} at the matrix's scale `max eps (sum |w| / 2^26)` and multiplied back. The kernel computes it in four
  pipelined regions (the sum of |w| accumulated over 64 row blocks, the two quantizations block by block, the matmul
  on a 16 x 16 grid of output blocks) around reshapes of the activations and of the output; the reference in one
  straight line of host operations. A sum of extended reals does not depend on how it is grouped, a change of float
  format is the identity, and every other operation is the same function on both sides, so no fact about the inputs is
  used beyond their being the same on both sides.
  The three frames: each kernel program's is its run over its segments; the reference's is its run with the result
  dropped. The idealization rewrote no operation, so there is nothing to preserve.
-/
import proofs.«123339_j26405458936545_1_alg».proof.Defs
import proofs.«123339_j26405458936545_1_alg».proof.Proof.Gen.Kernel
import proofs.«123339_j26405458936545_1_alg».proof.Proof.Gen.Kernel.Frame
import proofs.«123339_j26405458936545_1_alg».proof.Proof.Gen.KernelIdeal
import proofs.«123339_j26405458936545_1_alg».proof.Proof.Gen.KernelIdeal.Frame
import proofs.«123339_j26405458936545_1_alg».proof.Proof.Gen.ReferenceIdeal
import proofs.«123339_j26405458936545_1_alg».proof.Proof.Gen.Pre_finite_inputs
import proofs.«123339_j26405458936545_1_alg».proof.Proof.KRun
import proofs.«123339_j26405458936545_1_alg».proof.Proof.KernelValue
import proofs.«123339_j26405458936545_1_alg».proof.Proof.RefRun
import proofs.«123339_j26405458936545_1_alg».proof.Proof.RefValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- From memories agreeing on the arguments both programs end with the layer's output of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Layer.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact Cert.ReferenceIdeal.RefValue.result _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
